-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x112x112 : Shape := ⟨4, ![32, 256, 112, 112]⟩
abbrev S64x256 : Shape := ⟨2, ![64, 256]⟩
abbrev S64 : Shape := ⟨1, ![64]⟩
abbrev S256x64 : Shape := ⟨2, ![256, 64]⟩
abbrev S256 : Shape := ⟨1, ![256]⟩
abbrev S_ : Shape := ⟨0, ![]⟩

class Facts : Prop where
  bcast_S_S32x256x112x112 : S_.BroadcastsInDim S32x256x112x112 (![] : Fin 0 → Fin S32x256x112x112.rank)
  reducesTo_S32x256x112x112_S_d0_1_2_3 : S32x256x112x112.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x112x112 .f32) (main_arg1 : FVec F S64x256 .f32) (main_arg2 : FVec F S64 .f32) (main_arg3 : FVec F S256x64 .f32) (main_arg4 : FVec F S256 .f32) : IVec S_ 1 :=
  let main_v0 : FVec F S32x256x112x112 .f32 := Host.absf main_arg0
  let main_cst : FVec F S_ .f32 := constant S_ .f32 0x7F800000#32
  let main_v1 : FVec F S32x256x112x112 .f32 := broadcastInDim S32x256x112x112 ![] bcast_S_S32x256x112x112 main_cst
  let main_v2 : IVec S32x256x112x112 1 := cmpf .olt main_v0 main_v1
  let main_c : IVec S_ 1 := constantI S_ 1 1#1
  let main_v3 : IVec S_ 1 := (fun x v => Host.reduce IntOp.andi x v reducesTo_S32x256x112x112_S_d0_1_2_3 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S32x256x112x112 : Shape := ⟨4, ![32, 256, 112, 112]⟩
abbrev S64x256 : Shape := ⟨2, ![64, 256]⟩
abbrev S64 : Shape := ⟨1, ![64]⟩
abbrev S256x64 : Shape := ⟨2, ![256, 64]⟩
abbrev S256 : Shape := ⟨1, ![256]⟩
abbrev S32x256x12544 : Shape := ⟨3, ![32, 256, 12544]⟩
abbrev S1x64 : Shape := ⟨2, ![1, 64]⟩
abbrev S1x256 : Shape := ⟨2, ![1, 256]⟩
abbrev S1x256x12544 : Shape := ⟨3, ![1, 256, 12544]⟩
abbrev S1x256x1 : Shape := ⟨3, ![1, 256, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x256x112x112, .f32⟩
  | .hbm, ⟨1, _⟩ => ⟨S64x256, .f32⟩
  | .hbm, ⟨2, _⟩ => ⟨S64, .f32⟩
  | .hbm, ⟨3, _⟩ => ⟨S256x64, .f32⟩
  | .hbm, ⟨4, _⟩ => ⟨S256, .f32⟩
  | .hbm, ⟨5, _⟩ => ⟨S32x256x12544, .f32⟩
  | .hbm, ⟨6, _⟩ => ⟨S256x64, .f32⟩
  | .hbm, ⟨7, _⟩ => ⟨S64x256, .f32⟩
  | .hbm, ⟨8, _⟩ => ⟨S1x64, .f32⟩
  | .hbm, ⟨9, _⟩ => ⟨S1x256, .f32⟩
  | .hbm, ⟨10, _⟩ => ⟨S32x256x12544, .f32⟩
  | .hbm, ⟨11, _⟩ => ⟨S32x256x112x112, .f32⟩
  | .local _ .vmem, ⟨0, _⟩ => ⟨S1x256x12544, .f32⟩
  | .local _ .vmem, ⟨1, _⟩ => ⟨S1x256x12544, .f32⟩
  | .local _ .vmem, ⟨2, _⟩ => ⟨S256x64, .f32⟩
  | .local _ .vmem, ⟨3, _⟩ => ⟨S1x64, .f32⟩
  | .local _ .vmem, ⟨4, _⟩ => ⟨S64x256, .f32⟩
  | .local _ .vmem, ⟨5, _⟩ => ⟨S1x256, .f32⟩
  | .local _ .vmem, ⟨6, _⟩ => ⟨S1x256x12544, .f32⟩
  | .local _ .vmem, ⟨7, _⟩ => ⟨S1x256x12544, .f32⟩
  | _, _ => ⟨S32x256x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x12544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x112x112_S32x256x12544 : S32x256x112x112.ShapeCasts S32x256x12544
  transposes_S64x256_S256x64_1_0 : S64x256.Transposes [1, 0] S256x64
  transposes_S256x64_S64x256_1_0 : S256x64.Transposes [1, 0] S64x256
  shapeCasts_S64_S1x64 : S64.ShapeCasts S1x64
  shapeCasts_S256_S1x256 : S256.ShapeCasts S1x256
  inb_S1x256x12544_S1x256x12544_0_0_0 : ∀ a, (![0, 0, 0] : Fin 3 → Nat) a + S1x256x12544.size a ≤ S1x256x12544.size a
  h_S1x256x12544 : 0 < S1x256x12544.numel
  shapeCasts_S1x256x12544_S1x256x12544 : S1x256x12544.ShapeCasts S1x256x12544
  reduces_S1x256x12544_S1x256 : S1x256x12544.Reduces [2] S1x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x256x1 : S1x256.ShapeCasts S1x256x1
  broadcasts_S1x256x1_S1x256x12544 : S1x256x1.Broadcasts S1x256x12544
  shapeCasts_S32x256x12544_S32x256x112x112 : S32x256x12544.ShapeCasts S32x256x112x112
  dot_S1x256_S256x64_S1x64_1_0_0_1_n_n_wf : DotDims.WF S1x256 S256x64 S1x64 [1] [0] [0] [1] [] []
  dot_S1x64_S64x256_S1x256_1_0_0_1_n_n_wf : DotDims.WF S1x64 S64x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x12544.size a ≤ S32x256x12544.size a
  hwx0_0 : ∀ i : grid0.Coords, EltTy.bits .f32 = 32 ∨ (Rect.block (s := S32x256x12544) S1x256x12544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x12544.size a ≤ S32x256x12544.size a
  hwx0_5 : ∀ i : grid0.Coords, EltTy.bits .f32 = 32 ∨ (Rect.block (s := S32x256x12544) S1x256x12544.size (cc0_transform_5 i) (hinb0_5 i)).WholeWords (EltTy.packing .f32)

variable [Facts₀]

def dot_S1x256_S256x64_S1x64_1_0_0_1_n_n : DotDims S1x256 S256x64 S1x64 where
  lhsContracting := [1]
  rhsContracting := [0]
  lhsNonContracting := [0]
  rhsNonContracting := [1]
  lhsBatch := []
  rhsBatch := []
  wf := dot_S1x256_S256x64_S1x64_1_0_0_1_n_n_wf
def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf

abbrev win0_0 : Pipeline.Window sig grid0 :=
  Pipeline.Window.ofSpec (Memref.whole main_v0) S1x256x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256x12544.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x112x112 : Shape := ⟨4, ![32, 256, 112, 112]⟩
abbrev S64x256 : Shape := ⟨2, ![64, 256]⟩
abbrev S64 : Shape := ⟨1, ![64]⟩
abbrev S256x64 : Shape := ⟨2, ![256, 64]⟩
abbrev S256 : Shape := ⟨1, ![256]⟩
abbrev S_ : Shape := ⟨0, ![]⟩
abbrev S32x256 : Shape := ⟨2, ![32, 256]⟩
abbrev S32x64 : Shape := ⟨2, ![32, 64]⟩
abbrev S1x64 : Shape := ⟨2, ![1, 64]⟩
abbrev S1x256 : Shape := ⟨2, ![1, 256]⟩
abbrev S32x256x1x1 : Shape := ⟨4, ![32, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x256x112x112, .f32⟩
  | .hbm, ⟨1, _⟩ => ⟨S64x256, .f32⟩
  | .hbm, ⟨2, _⟩ => ⟨S64, .f32⟩
  | .hbm, ⟨3, _⟩ => ⟨S256x64, .f32⟩
  | .hbm, ⟨4, _⟩ => ⟨S256, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S32x64, .f32⟩
  | .hbm, ⟨11, _⟩ => ⟨S1x64, .f32⟩
  | .hbm, ⟨12, _⟩ => ⟨S32x64, .f32⟩
  | .hbm, ⟨13, _⟩ => ⟨S32x64, .f32⟩
  | .hbm, ⟨14, _⟩ => ⟨S_, .f32⟩
  | .hbm, ⟨15, _⟩ => ⟨S32x64, .f32⟩
  | .hbm, ⟨16, _⟩ => ⟨S32x64, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S_, .f32⟩
  | .hbm, ⟨27, _⟩ => ⟨S32x256, .f32⟩
  | .hbm, ⟨28, _⟩ => ⟨S32x256, .f32⟩
  | .hbm, ⟨29, _⟩ => ⟨S32x256x1x1, .f32⟩
  | .hbm, ⟨30, _⟩ => ⟨S32x256x112x112, .f32⟩
  | .hbm, ⟨31, _⟩ => ⟨S32x256x112x112, .f32⟩
  | _, _ => ⟨S32x256x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S32x256x112x112_S32x256_d2_3 : S32x256x112x112.ReducesTo [2, 3] S32x256
  h_S_ : 0 < S_.numel
  bcast_S_S32x256 : S_.BroadcastsInDim S32x256 (![] : Fin 0 → Fin S32x256.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S32x256x1x1_S32x256x112x112_0_1_2_3 : S32x256x1x1.BroadcastsInDim S32x256x112x112 (![0, 1, 2, 3] : Fin 4 → Fin S32x256x112x112.rank)
  dot_S32x256_S64x256_S32x64_1_1_0_0_n_n_wf : DotDims.WF S32x256 S64x256 S32x64 [1] [1] [0] [0] [] []
  dot_S32x64_S256x64_S32x256_1_1_0_0_n_n_wf : DotDims.WF S32x64 S256x64 S32x256 [1] [1] [0] [0] [] []

variable [Facts₀]

def dot_S32x256_S64x256_S32x64_1_1_0_0_n_n : DotDims S32x256 S64x256 S32x64 where
  lhsContracting := [1]
  rhsContracting := [1]
  lhsNonContracting := [0]
  rhsNonContracting := [0]
  lhsBatch := []
  rhsBatch := []
  wf := dot_S32x256_S64x256_S32x64_1_1_0_0_n_n_wf
def dot_S32x64_S256x64_S32x256_1_1_0_0_n_n : DotDims S32x64 S256x64 S32x256 where
  lhsContracting := [1]
  rhsContracting := [1]
  lhsNonContracting := [0]
  rhsNonContracting := [0]
  lhsBatch := []
  rhsBatch := []
  wf := dot_S32x64_S256x64_S32x256_1_1_0_0_n_n_wf

class Facts : Prop extends Facts₀ where

variable [Facts]
-- ==== Proof.Spec.lean ====
/-
  The channel gate of a squeeze-and-excite block, on the extended reals.

  For one sample, from the per-channel sums `s k` of its activations over the pooled positions: the mean is
  `s k / n` (`n` the number of pooled positions, kept as the float word both programs divide by, never evaluated);
  a first dense layer with a rectifier, `h o = max (∑ k, mean k · W1 o k + B1 o) 0`; a second dense layer,
  `a c = ∑ o, h o · W2 c o + B2 c`; and the logistic function of `a c`. The result of the whole block is each
  activation times the gate of its sample and channel.

  The two programs differ only in how a sample's positions are listed — one axis of 12544 positions, or a 112 × 112
  grid — and in which arrangement of the two weight matrices they read; the gate below is stated over the weights as
  functions of (output, input), so both sides instantiate the same term.
-/
import Idealize.ShloMosaic.PureOps.Ideal
import Idealize.ShloMosaic.PureOps.Ideal.Laws
import Idealize.ShloMosaic.Lib.ValueIdx

open scoped BigOperators

noncomputable section

namespace Cert.ChannelGate

open Idealize.ShloMosaic Idealize.ShloMosaic.ValueIdx

/-- The number of pooled positions, 12544.0, as the float word both programs divide by. -/
def count : EReal := Ideal.ofBits .f32 0x46440000#32

/-- The gate of channel `c` of one sample, from the sample's per-channel sums `s`. -/
def gate (s : Fin 256 → EReal) (W1 : Fin 64 → Fin 256 → EReal) (B1 : Fin 64 → EReal)
    (W2 : Fin 256 → Fin 64 → EReal) (B2 : Fin 256 → EReal) (c : Fin 256) : EReal :=
  Ideal.logistic ((∑ o : Fin 64, max ((∑ k : Fin 256, Ideal.div (s k) count * W1 o k) + B1 o) 0 * W2 c o) + B2 c)

/-- The sum of sample `b`, channel `c` over the 112 × 112 grid of positions. -/
def gridSum (x : (⟨4, ![32, 256, 112, 112]⟩ : Shape).Idx → EReal) (b : Fin 32) (c : Fin 256) : EReal :=
  ∑ h : Fin 112, ∑ w : Fin 112, x (ix4 b c h w)

/-- The block's result: every activation times the gate of its sample and channel. -/
def scaled (x : (⟨4, ![32, 256, 112, 112]⟩ : Shape).Idx → EReal) (w1 : (⟨2, ![64, 256]⟩ : Shape).Idx → EReal)
    (b1 : (⟨1, ![64]⟩ : Shape).Idx → EReal) (w2 : (⟨2, ![256, 64]⟩ : Shape).Idx → EReal)
    (b2 : (⟨1, ![256]⟩ : Shape).Idx → EReal) : (⟨4, ![32, 256, 112, 112]⟩ : Shape).Idx → EReal :=
  fun i => x i * gate (gridSum x (i 0)) (fun o k => w1 (ix2 o k)) (fun o => b1 (ix1 o))
    (fun c o => w2 (ix2 c o)) (fun c => b2 (ix1 c)) (i 1)

/-- The float word 1.0 is the real number one. -/
theorem ofBits_one_f32 : Ideal.ofBits .f32 0x3F800000#32 = 1 := IdealRules.sign_bit.ideal_onePat .f32

/-- The logistic function is the quotient the host spells out: `1 / (1 + e^(-a))`. -/
theorem logistic_eq (a : EReal) : Ideal.logistic a = Ideal.div 1 (1 + Ideal.exp (-a)) := rfl

end Cert.ChannelGate

end
-- ==== Proof.RefGate.lean ====
/-
  The reference program computes the channel gate of `Spec.lean`, index by index.

  Its first stage sums the activations over the two position axes: at sample `b`, channel `c` the indices that
  drop to `(b, c)` are exactly the `(b, c, h, w)` with `h, w` ranging over the 112 × 112 grid, so the sum over them
  is the double sum `∑ h, ∑ w` (the initial word `0.0` is the real zero). Every later stage is read at explicit
  coordinates: the mean is the grid sum divided by the word `12544.0`; the first dense layer contracts the mean
  against the weights at `(o, k)`, adds the bias and takes the maximum with zero; the second contracts the hidden
  layer against the weights at `(c, o)` and adds the bias; and `1 / (1 + e^(-a))`, with both ones the word `1.0`,
  is the logistic function. The operand orders already agree with the specification term by term, so no
  commutation is used.
-/
import proofs.«118644_j65481071396323_2_alg».proof.Proof.Gen.ReferenceIdeal.Read
import proofs.«118644_j65481071396323_2_alg».proof.Proof.Spec
open scoped BigOperators
noncomputable section
namespace Cert.RefGate
open Idealize.ShloMosaic Idealize.ShloMosaic.ValueIdx Cert.ReferenceIdeal Cert.ReferenceIdeal.Read

/-- An index drops to (b, c) exactly when its first two coordinates are b and c. -/
theorem drop_eq_iff (hr : S32x256x112x112.ReducesTo [2, 3] S32x256) (i : S32x256x112x112.Idx) (b : Fin 32) (c : Fin 256) :
    hr.drop i = ix2 b c ↔ i 0 = b ∧ i 1 = c := by
  have e0 : (hr.drop i 0 : Nat) = i 0 := hr.drop_apply_val_of_eq i 0 0
  have e1 : (hr.drop i 1 : Nat) = i 1 := hr.drop_apply_val_of_eq i 1 1
  constructor
  · intro h
    refine ⟨Fin.ext ?_, Fin.ext ?_⟩
    · have := congrArg (fun j => (j 0).val) h
      exact e0.symm.trans this
    · have := congrArg (fun j => (j 1).val) h
      exact e1.symm.trans this
  · rintro ⟨h0, h1⟩
    funext a
    match a with
    | ⟨0, _⟩ => exact Fin.ext (e0.trans (congrArg Fin.val h0))
    | ⟨1, _⟩ => exact Fin.ext (e1.trans (congrArg Fin.val h1))

/-- The sum over the indices that drop to (b, c) is the double sum over the 112 × 112 grid. -/
theorem sum_filter_drop (hr : S32x256x112x112.ReducesTo [2, 3] S32x256) (x : S32x256x112x112.Idx → EReal) (b : Fin 32) (c : Fin 256) :
    ∑ i ∈ Finset.univ.filter (fun i => hr.drop i = ix2 b c), x i = ∑ h : Fin 112, ∑ w : Fin 112, x (ix4 b c h w) := by
  rw [← Fintype.sum_prod_type' (f := fun (h : Fin 112) (w : Fin 112) => x (ix4 b c h w))]
  symm
  refine Finset.sum_bij (fun (p : Fin 112 × Fin 112) _ => (ix4 b c p.1 p.2 : S32x256x112x112.Idx)) ?_ ?_ ?_ ?_
  · intro p _
    exact Finset.mem_filter.2 ⟨Finset.mem_univ _, (drop_eq_iff hr _ b c).2 ⟨rfl, rfl⟩⟩
  · intro p _ q _ h
    have h2 : p.1 = q.1 := congrFun h 2
    have h3 : p.2 = q.2 := congrFun h 3
    exact Prod.ext h2 h3
  · intro i hi
    obtain ⟨h0, h1⟩ := (drop_eq_iff hr i b c).1 (Finset.mem_filter.1 hi).2
    refine ⟨(i 2, i 3), Finset.mem_univ _, ?_⟩
    subst h0; subst h1
    exact (eq_ix4 i).symm
  · intro p _; rfl

/-- The host's sum over the two position axes, read at sample `b`, channel `c`. -/
theorem v0_apply (x0 : (⟨S32x256x112x112, .f32⟩ : BufTy).Contents (Elt Ideal)) (b : Fin 32) (c : Fin 256) :
    val_main_v0 (F := Ideal) x0 (ix2 b c) = Cert.ChannelGate.gridSum x0 b c := by
  show Ideal.hostReduceAdd _ x0 (Ideal.ofBits .f32 0x00000000#32) (ix2 b c) = _
  unfold Ideal.hostReduceAdd
  rw [Ideal.ofBits_zero_f32, zero_add]
  exact sum_filter_drop _ x0 b c

/-! The index functions of the later stages, at explicit coordinates. -/

theorem lidx_v3 (b : Fin 32) (o : Fin 64) (k : Fin 256) : lidx_main_v3 (ix2 b o) k = ix2 b k :=
  funext fun a => by match a with | ⟨0, _⟩ => rfl | ⟨1, _⟩ => rfl
theorem ridx_v3 (b : Fin 32) (o : Fin 64) (k : Fin 256) : ridx_main_v3 (ix2 b o) k = ix2 o k :=
  funext fun a => by match a with | ⟨0, _⟩ => rfl | ⟨1, _⟩ => rfl
theorem idx_v4v5 (b : Fin 32) (o : Fin 64) : idx_main_v4 (idx_main_v5 (ix2 b o)) = ix1 o :=
  funext fun a => by match a with | ⟨0, _⟩ => rfl
theorem lidx_v8 (b : Fin 32) (c : Fin 256) (o : Fin 64) : lidx_main_v8 (ix2 b c) o = ix2 b o :=
  funext fun a => by match a with | ⟨0, _⟩ => rfl | ⟨1, _⟩ => rfl
theorem ridx_v8 (b : Fin 32) (c : Fin 256) (o : Fin 64) : ridx_main_v8 (ix2 b c) o = ix2 c o :=
  funext fun a => by match a with | ⟨0, _⟩ => rfl | ⟨1, _⟩ => rfl
theorem idx_v9v10 (b : Fin 32) (c : Fin 256) : idx_main_v9 (idx_main_v10 (ix2 b c)) = ix1 c :=
  funext fun a => by match a with | ⟨0, _⟩ => rfl
theorem idx_v18v19 (b : Fin 32) (c : Fin 256) (h w : Fin 112) : idx_main_v18 (idx_main_v19 (ix4 b c h w)) = ix2 b c :=
  funext fun a => by match a with | ⟨0, _⟩ => rfl | ⟨1, _⟩ => rfl

/-- The mean of sample `b`, channel `k`: the grid sum divided by the number of positions. -/
theorem v2_apply (x0 : (⟨S32x256x112x112, .f32⟩ : BufTy).Contents (Elt Ideal)) (b : Fin 32) (k : Fin 256) :
    val_main_v2 (F := Ideal) x0 (ix2 b k) = Ideal.div (Cert.ChannelGate.gridSum x0 b k) Cert.ChannelGate.count := by
  rw [val_main_v2_apply, v0_apply, val_main_v1_apply, val_main_cst_0_apply]
  rfl

/-- The hidden layer of sample `b` at unit `o`. -/
theorem v7_apply (x0 : (⟨S32x256x112x112, .f32⟩ : BufTy).Contents (Elt Ideal)) (x1 : (⟨S64x256, .f32⟩ : BufTy).Contents (Elt Ideal))
    (x2 : (⟨S64, .f32⟩ : BufTy).Contents (Elt Ideal)) (b : Fin 32) (o : Fin 64) :
    val_main_v7 (F := Ideal) x0 x1 x2 (ix2 b o)
      = max ((∑ k : Fin 256, Ideal.div (Cert.ChannelGate.gridSum x0 b k) Cert.ChannelGate.count * x1 (ix2 o k)) + x2 (ix1 o)) 0 := by
  rw [val_main_v7_apply, val_main_v6_apply, val_main_v3_apply, val_main_v5_apply, val_main_v4_apply, idx_v4v5,
    val_main_call0_v0_apply, val_main_call0_cst_apply]
  have e : ∑ k : Fin 256, val_main_v2 (F := Ideal) x0 (lidx_main_v3 (ix2 b o) k) * x1 (ridx_main_v3 (ix2 b o) k)
      = ∑ k : Fin 256, Ideal.div (Cert.ChannelGate.gridSum x0 b k) Cert.ChannelGate.count * x1 (ix2 o k) :=
    Finset.sum_congr rfl fun k _ => by rw [lidx_v3, ridx_v3, v2_apply]
  rw [e]
  show max _ (Ideal.ofBits .f32 0x00000000#32) = _
  rw [Ideal.ofBits_zero_f32]
  rfl

/-- The second dense layer of sample `b` at channel `c`, before the logistic function. -/
theorem v11_apply (x0 : (⟨S32x256x112x112, .f32⟩ : BufTy).Contents (Elt Ideal)) (x1 : (⟨S64x256, .f32⟩ : BufTy).Contents (Elt Ideal))
    (x2 : (⟨S64, .f32⟩ : BufTy).Contents (Elt Ideal)) (x3 : (⟨S256x64, .f32⟩ : BufTy).Contents (Elt Ideal))
    (x4 : (⟨S256, .f32⟩ : BufTy).Contents (Elt Ideal)) (b : Fin 32) (c : Fin 256) :
    val_main_v11 (F := Ideal) x0 x1 x2 x3 x4 (ix2 b c)
      = (∑ o : Fin 64, max ((∑ k : Fin 256, Ideal.div (Cert.ChannelGate.gridSum x0 b k) Cert.ChannelGate.count * x1 (ix2 o k))
          + x2 (ix1 o)) 0 * x3 (ix2 c o)) + x4 (ix1 c) := by
  rw [val_main_v11_apply, val_main_v8_apply, val_main_v10_apply, val_main_v9_apply, idx_v9v10]
  have e : ∑ o : Fin 64, val_main_v7 (F := Ideal) x0 x1 x2 (lidx_main_v8 (ix2 b c) o) * x3 (ridx_main_v8 (ix2 b c) o)
      = ∑ o : Fin 64, max ((∑ k : Fin 256, Ideal.div (Cert.ChannelGate.gridSum x0 b k) Cert.ChannelGate.count * x1 (ix2 o k))
          + x2 (ix1 o)) 0 * x3 (ix2 c o) :=
    Finset.sum_congr rfl fun o _ => by rw [lidx_v8, ridx_v8, v7_apply]
  rw [e]
  rfl

/-- The gate of sample `b`, channel `c`: the host's `1 / (1 + e^(-a))` is the logistic function of the second layer. -/
theorem v17_apply (x0 : (⟨S32x256x112x112, .f32⟩ : BufTy).Contents (Elt Ideal)) (x1 : (⟨S64x256, .f32⟩ : BufTy).Contents (Elt Ideal))
    (x2 : (⟨S64, .f32⟩ : BufTy).Contents (Elt Ideal)) (x3 : (⟨S256x64, .f32⟩ : BufTy).Contents (Elt Ideal))
    (x4 : (⟨S256, .f32⟩ : BufTy).Contents (Elt Ideal)) (b : Fin 32) (c : Fin 256) :
    val_main_v17 (F := Ideal) x0 x1 x2 x3 x4 (ix2 b c)
      = Cert.ChannelGate.gate (Cert.ChannelGate.gridSum x0 b) (fun o k => x1 (ix2 o k)) (fun o => x2 (ix1 o))
          (fun c o => x3 (ix2 c o)) (fun c => x4 (ix1 c)) c := by
  rw [val_main_v17_apply, val_main_v16_apply, val_main_cst_2_apply, val_main_v15_apply, val_main_v14_apply,
    val_main_cst_1_apply, val_main_v13_apply, val_main_v12_apply, v11_apply]
  unfold Cert.ChannelGate.gate
  rw [Cert.ChannelGate.logistic_eq]
  show Ideal.div (Ideal.ofBits .f32 0x3F800000#32) (Ideal.ofBits .f32 0x3F800000#32 + Ideal.exp (-_)) = _
  rw [Cert.ChannelGate.ofBits_one_f32]

/-- The reference program's result is the specification: every activation times the gate of its sample and channel. -/
theorem reference_eq (x0 : (⟨S32x256x112x112, .f32⟩ : BufTy).Contents (Elt Ideal)) (x1 : (⟨S64x256, .f32⟩ : BufTy).Contents (Elt Ideal))
    (x2 : (⟨S64, .f32⟩ : BufTy).Contents (Elt Ideal)) (x3 : (⟨S256x64, .f32⟩ : BufTy).Contents (Elt Ideal))
    (x4 : (⟨S256, .f32⟩ : BufTy).Contents (Elt Ideal)) :
    val_main_v20 (F := Ideal) x0 x1 x2 x3 x4 = Cert.ChannelGate.scaled x0 x1 x2 x3 x4 := by
  funext i
  obtain ⟨b, c, h, w, rfl⟩ : ∃ (b : Fin 32) (c : Fin 256) (h w : Fin 112), i = ix4 b c h w := ⟨i 0, i 1, i 2, i 3, eq_ix4 i⟩
  rw [val_main_v20_apply, val_main_v19_apply, val_main_v18_apply, idx_v18v19, v17_apply]
  rfl

end Cert.RefGate
end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.EntryArrays.lean ====
/-
  The arrays the region reads, as functions of the program's arguments.

  Before the region the program re-lays its arguments: the activations `x : [32, 256, 112, 112]` are viewed as
  `[32, 256, 12544]`, position `(h, w)` of the grid becoming position `h · 112 + w` of the long axis (same row-major
  place); the two weight matrices are transposed, so entry `(k, o)` of the first is `w1 (o, k)` and entry `(o, c)` of the
  second is `w2 (c, o)`; the two bias vectors get a leading unit axis. Each lemma below reads one of these arrays at an
  index.
-/
import proofs.«118644_j65481071396323_2_alg».proof.Proof.Gen.KernelIdeal.Frame
import proofs.«118644_j65481071396323_2_alg».proof.Proof.LibMatmul
import Idealize.ShloMosaic.Lib.Pipeline.Value
import Idealize.ShloMosaic.Lib.ValueIdx
import Idealize.ShloMosaic.Lib.ValueLayout
import Idealize.ShloMosaic.Lib.StableHlo.Run

noncomputable section

namespace Cert.KernelSide

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The activations, the two weight matrices and the two biases as the region finds them on core `c`, each as a
    plain function of its index. -/
def arrX (c : Dev nD) : S32x256x12544.Idx → EReal := V m c main_v0
def arrW1 (c : Dev nD) : S256x64.Idx → EReal := V m c main_v1
def arrW2 (c : Dev nD) : S64x256.Idx → EReal := V m c main_v2
def arrB1 (c : Dev nD) : S1x64.Idx → EReal := V m c main_v3
def arrB2 (c : Dev nD) : S1x256.Idx → EReal := V m c main_v4

/-- The five arguments on core `c`, likewise. -/
abbrev argX (c : Dev nD) : S32x256x112x112.Idx → EReal := m ((c : Thread nD τ).loc main_arg0)
abbrev argW1 (c : Dev nD) : S64x256.Idx → EReal := m ((c : Thread nD τ).loc main_arg1)
abbrev argB1 (c : Dev nD) : S64.Idx → EReal := m ((c : Thread nD τ).loc main_arg2)
abbrev argW2 (c : Dev nD) : S256x64.Idx → EReal := m ((c : Thread nD τ).loc main_arg3)
abbrev argB2 (c : Dev nD) : S256.Idx → EReal := m ((c : Thread nD τ).loc main_arg4)

/-- The activations as the region finds them: the argument viewed with its two position axes merged. -/
theorem entry_x (c : Dev nD) : arrX m c
    = shapeCast S32x256x12544 (argX m c) shapeCasts_S32x256x112x112_S32x256x12544 := by
  show StableHlo.after hostOps0 (fun b => m (c, b)) (Proc.devRef .tc main_v0) = _
  after_results <;> rfl

/-- The first weight matrix as the region finds it: the argument transposed. -/
theorem entry_w1 (c : Dev nD) : arrW1 m c
    = transpose S256x64 [1, 0] (argW1 m c) transposes_S64x256_S256x64_1_0 := by
  show StableHlo.after hostOps0 (fun b => m (c, b)) (Proc.devRef .tc main_v1) = _
  after_results <;> rfl

/-- The second weight matrix as the region finds it: the argument transposed. -/
theorem entry_w2 (c : Dev nD) : arrW2 m c
    = transpose S64x256 [1, 0] (argW2 m c) transposes_S256x64_S64x256_1_0 := by
  show StableHlo.after hostOps0 (fun b => m (c, b)) (Proc.devRef .tc main_v2) = _
  after_results <;> rfl

/-- The first bias as the region finds it: the argument as a one-row matrix. -/
theorem entry_b1 (c : Dev nD) : arrB1 m c
    = shapeCast S1x64 (argB1 m c) shapeCasts_S64_S1x64 := by
  show StableHlo.after hostOps0 (fun b => m (c, b)) (Proc.devRef .tc main_v3) = _
  after_results <;> rfl

/-- The second bias as the region finds it: the argument as a one-row matrix. -/
theorem entry_b2 (c : Dev nD) : arrB2 m c
    = shapeCast S1x256 (argB2 m c) shapeCasts_S256_S1x256 := by
  show StableHlo.after hostOps0 (fun b => m (c, b)) (Proc.devRef .tc main_v4) = _
  after_results <;> rfl

/-- Position `q = h · 112 + w` of the merged axis is grid position `(h, w)`. -/
theorem entry_x_apply (c : Dev nD) (b : Fin 32) (k : Fin 256) (h w : Fin 112) (q : Fin 12544)
    (hq : q.val = h.val * 112 + w.val) :
    arrX m c (ix3 b k q) = argX m c (ix4 b k h w) := by
  rw [entry_x]
  refine shapeCast_apply _ _ (ix3 b k q) (ix4 b k h w) ?_
  rw [Shape.rowMajor_val_four, Shape.rowMajor_val_three]
  show ((b.val * 256 + k.val) * 112 + h.val) * 112 + w.val = (b.val * 256 + k.val) * 12544 + q.val
  omega

/-- Entry `(k, o)` of the transposed first weight matrix is `w1 (o, k)`. -/
theorem entry_w1_apply (c : Dev nD) (k : Fin 256) (o : Fin 64) :
    arrW1 m c (ix2 k o) = argW1 m c (ix2 o k) := by
  rw [entry_w1]
  exact Cert.MatOps.transpose10_apply _ _ k o

/-- Entry `(o, c')` of the transposed second weight matrix is `w2 (c', o)`. -/
theorem entry_w2_apply (c : Dev nD) (o : Fin 64) (c' : Fin 256) :
    arrW2 m c (ix2 o c') = argW2 m c (ix2 c' o) := by
  rw [entry_w2]
  exact Cert.MatOps.transpose10_apply _ _ o c'

/-- The one row of the first bias. -/
theorem entry_b1_apply (c : Dev nD) (u : Fin 1) (o : Fin 64) :
    arrB1 m c (ix2 u o) = argB1 m c (ix1 o) := by
  rw [entry_b1]
  exact shapeCast_a_1a_apply _ _ u o

/-- The one row of the second bias. -/
theorem entry_b2_apply (c : Dev nD) (u : Fin 1) (c' : Fin 256) :
    arrB2 m c (ix2 u c') = argB2 m c (ix1 c') := by
  rw [entry_b2]
  exact shapeCast_a_1a_apply _ _ u c'

end Cert.KernelSide

end
-- ==== Proof.LibLayout3.lean ====
/-
  Four layout operations on rank-three arrays, read at an index.

  Casting `[A, B, K]` to `[M, K]` with `M = A * B` merges the two leading axes: row `a * B + b` of the result is row
  `(a, b)` of the operand, both having row-major position `(a * B + b) * K + k`. Casting back splits them.
  Casting `[A, B]` to `[A, B, 1]` appends a unit axis: entry `(a, b, 0)` is entry `(a, b)`.
  Broadcasting `[A, B, 1]` to `[A, B, C]` copies entry `(a, b, 0)` along the last axis.
-/
import Idealize.ShloMosaic.Lib.Pipeline.Value
import Idealize.ShloMosaic.Lib.ValueIdx

namespace Cert.Layout3

open Idealize.ShloMosaic Idealize.ShloMosaic.ValueIdx

variable {α : Type}

/-- `[A, B, K]` cast to `[M, K]`: at row `q = a * B + b` and column `k`, the operand at `(a, b, k)`. -/
theorem shapeCast_abk_mk_apply {A B K M : ℕ} (x : (⟨3, ![A, B, K]⟩ : Shape).Idx → α)
    (h : (⟨3, ![A, B, K]⟩ : Shape).ShapeCasts ⟨2, ![M, K]⟩) (a : Fin A) (b : Fin B) (k : Fin K) (q : Fin M)
    (hq : q.val = a.val * B + b.val) : shapeCast ⟨2, ![M, K]⟩ x h (ix2 q k) = x (ix3 a b k) :=
  shapeCast_apply x h _ _ (by
    rw [Shape.rowMajor_val_three, Shape.rowMajor_val_two]
    show (a.val * B + b.val) * K + k.val = q.val * K + k.val
    rw [hq])

/-- `[M, K]` cast to `[A, B, K]`: at `(a, b, k)`, the operand at row `q = a * B + b` and column `k`. -/
theorem shapeCast_mk_abk_apply {A B K M : ℕ} (y : (⟨2, ![M, K]⟩ : Shape).Idx → α)
    (h : (⟨2, ![M, K]⟩ : Shape).ShapeCasts ⟨3, ![A, B, K]⟩) (a : Fin A) (b : Fin B) (k : Fin K) (q : Fin M)
    (hq : q.val = a.val * B + b.val) : shapeCast ⟨3, ![A, B, K]⟩ y h (ix3 a b k) = y (ix2 q k) :=
  shapeCast_apply y h _ _ (by
    rw [Shape.rowMajor_val_two, Shape.rowMajor_val_three]
    show q.val * K + k.val = (a.val * B + b.val) * K + k.val
    rw [hq])

/-- `[A, B]` cast to `[A, B, 1]`: at `(a, b, u)`, the operand at `(a, b)`, whatever the unit coordinate `u`. -/
theorem shapeCast_ab_ab1_apply {A B : ℕ} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    rw [hu, Nat.mul_one, Nat.add_zero])

/-- `[A, B, 1]` broadcast to `[A, B, C]`: at `(a, b, c)`, the operand at `(a, b, u)`. -/
theorem broadcastTo_ab1_abc_apply {A B C : ℕ} (v : (⟨3, ![A, B, 1]⟩ : Shape).Idx → α)
    (h : (⟨3, ![A, B, 1]⟩ : Shape).Broadcasts ⟨3, ![A, B, C]⟩) (a : Fin A) (b : Fin B) (c : Fin C) (u : Fin 1) :
    broadcastTo ⟨3, ![A, B, C]⟩ v h (ix3 a b c) = v (ix3 a b u) := by
  refine broadcastTo_apply v h (ix3 a b c) (ix3 a b u) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show u.val = if (1 : ℕ) = 1 then 0 else c.val
    rw [if_pos rfl]; omega

end Cert.Layout3
-- ==== Proof.KernelGate.lean ====
/-
  The kernel body's arithmetic, read at one index.

  One block of the kernel holds one sample: activations `x(c, p)` for 256 channels and 12544 positions. The body sums each
  channel over its positions, divides by the number of positions, applies a dense layer 256 → 64 with bias and rectifier, a
  dense layer 64 → 256 with bias, the logistic function, and multiplies every activation by the value obtained for its channel.
  Read at `(0, c, p)` this is `x(c, p)` times the channel gate of the specification, with the weights read as
  (output, input) ↦ entry (input, output) of the stored matrices.

  Each operation that is not pointwise is read at an index by one lemma over variables: the sum over the last axis, the two
  matrix products into the zero accumulator, and the cast to a trailing unit axis followed by the broadcast along it.
-/
import proofs.«118644_j65481071396323_2_alg».proof.Proof.Gen.KernelIdeal.Skeleton
import proofs.«118644_j65481071396323_2_alg».proof.Proof.Spec
import proofs.«118644_j65481071396323_2_alg».proof.Proof.LibMatmul
import proofs.«118644_j65481071396323_2_alg».proof.Proof.LibLayout3
open scoped BigOperators
noncomputable section
namespace Cert.KernelGate
open Idealize.ShloMosaic Idealize.ShloMosaic.ValueIdx Cert.KernelIdeal Cert.KernelIdeal.Gen

/-- The sum over the last axis of a `[1, 256, 12544]` array, at channel `k`: the sum over the 12544 positions of the
    entries `(0, k, q)`. -/
theorem laneSum_apply (v : FVec Ideal S1x256x12544 .f32) (hφ : FKind.Formats .f32)
    (hacc : (0x00000000#32 : BitVec 32) = FKind.add.neutral .f32 hφ) (k : Fin 256) :
    multiReduction (F := Ideal) .add [2] S1x256 v 0x00000000#32 reduces_S1x256x12544_S1x256 hφ hacc (ix2 0 k)
      = ∑ q : Fin 12544, v (ix3 0 k q) := by
  refine (Ideal.multiReduction_add_single v 0x00000000#32 reduces_S1x256x12544_S1x256 hφ hacc (ix2 0 k)).trans ?_
  refine Finset.sum_congr rfl fun q _ => congrArg v ?_
  funext a
  refine Fin.ext ?_
  match a with
  | ⟨0, _⟩ => rfl
  | ⟨1, _⟩ => rfl
  | ⟨2, _⟩ => rfl

/-- The first product, `[1, 256] × [256, 64]` into the zero accumulator, at column `o`. -/
theorem matmul1_apply (l : FVec Ideal S1x256 .f32) (r : FVec Ideal S256x64 .f32) (o : Fin 64) :
    matmul (F := Ideal) dot_S1x256_S256x64_S1x64_1_0_0_1_n_n none l r (constant (F := Ideal) S1x64 .f32 0x00000000#32) (ix2 0 o)
      = ∑ k : Fin 256, l (ix2 0 k) * r (ix2 k o) :=
  Cert.MatOps.matmul_plain_zero_apply (M := 1) (K := 256) (N := 64) none l r 0 o

/-- The second product, `[1, 64] × [64, 256]` into the zero accumulator, at column `c`. -/
theorem matmul2_apply (l : FVec Ideal S1x64 .f32) (r : FVec Ideal S64x256 .f32) (c : Fin 256) :
    matmul (F := Ideal) dot_S1x64_S64x256_S1x256_1_0_0_1_n_n none l r (constant (F := Ideal) S1x256 .f32 0x00000000#32) (ix2 0 c)
      = ∑ o : Fin 64, l (ix2 0 o) * r (ix2 o c) :=
  Cert.MatOps.matmul_plain_zero_apply (M := 1) (K := 64) (N := 256) none l r 0 c

/-- A `[1, 256]` row cast to `[1, 256, 1]` and broadcast to `[1, 256, 12544]`: at `(0, c, p)`, the row's entry `c`. -/
theorem spread_apply {α : Type} (g : S1x256.Idx → α) (c : Fin 256) (p : Fin 12544) :
    broadcastTo S1x256x12544 (shapeCast S1x256x1 g shapeCasts_S1x256_S1x256x1) broadcasts_S1x256x1_S1x256x12544 (ix3 0 c p)
      = g (ix2 0 c) :=
  (Cert.Layout3.broadcastTo_ab1_abc_apply (A := 1) (B := 256) (C := 12544) _ broadcasts_S1x256x1_S1x256x12544 0 c p 0).trans
    (Cert.Layout3.shapeCast_ab_ab1_apply (A := 1) (B := 256) g shapeCasts_S1x256_S1x256x1 0 c 0)

theorem payload_apply (v0 : Vec Ideal S1x256x12544 .f32) (v5 : Vec Ideal S256x64 .f32) (v8 : Vec Ideal S1x64 .f32)
    (v13 : Vec Ideal S64x256 .f32) (v16 : Vec Ideal S1x256 .f32) (c : Fin 256) (p : Fin 12544) :
    k0_pay1 (F := Ideal) v0 v5 v8 v13 v16 (ix3 0 c p)
      = v0 (ix3 0 c p) * Cert.ChannelGate.gate (fun k => ∑ q : Fin 12544, v0 (ix3 0 k q)) (fun o k => v5 (ix2 k o))
          (fun o => v8 (ix2 0 o)) (fun c' o => v13 (ix2 o c')) (fun c' => v16 (ix2 0 c')) c := by
  unfold k0_pay1
  simp only [shapeCast_self]
  -- the final product, then the cast and broadcast of the gate row
  refine (mulf_apply _ _ _).trans (congrArg (v0 (ix3 0 c p) * ·) ?_)
  refine (spread_apply _ c p).trans ?_
  unfold Cert.ChannelGate.gate
  -- the logistic function is applied entry by entry
  show Ideal.logistic _ = Ideal.logistic _
  refine congrArg Ideal.logistic ?_
  -- second dense layer: bias on the right, the product a sum over the 64 hidden units
  refine (addf_apply _ _ _).trans (congrArg (· + v16 (ix2 0 c)) ?_)
  refine (matmul2_apply _ _ c).trans (Finset.sum_congr rfl fun o _ => congrArg (· * v13 (ix2 o c)) ?_)
  -- rectifier: the maximum with the word 0.0, which is zero
  refine (maximumf_apply _ _ _).trans (congr_arg₂ max ?_ Ideal.ofBits_zero_f32)
  -- first dense layer: bias on the right, the product a sum over the 256 channels
  refine (addf_apply _ _ _).trans (congrArg (· + v8 (ix2 0 o)) ?_)
  refine (matmul1_apply _ _ o).trans (Finset.sum_congr rfl fun k _ => congrArg (· * v5 (ix2 k o)) ?_)
  -- the mean: the channel's sum over its positions, divided by the number of positions
  refine (divf_apply _ _ _).trans (congrArg (Ideal.div · Cert.ChannelGate.count) ?_)
  exact laneSum_apply v0 _ _ k
end Cert.KernelGate
end
-- ==== Proof.KernelArray.lean ====
/-
  The kernel's output array is one function of the arrays the region reads.

  The grid has one point per sample. Point `t` reads block `t` of the activations — all channels and positions of sample
  `t` — and the whole of the two weight matrices and the two biases, and writes block `t` of the output: every
  activation of the sample times its channel's gate. So what point `t` writes back is block `t` of the array
  `gated` below, the 32 blocks are the 32 samples, and together they cover the output: after the region the output array
  is `gated`. Summing a channel over the 12544 merged positions is summing it over the 112 × 112 grid, so `gated` is
  the specification's result with the position axes merged.
-/
import proofs.«118644_j65481071396323_2_alg».proof.Proof.Gen.KernelIdeal.Frame
import proofs.«118644_j65481071396323_2_alg».proof.Proof.Spec
import proofs.«118644_j65481071396323_2_alg».proof.Proof.LibBlockSum
import proofs.«118644_j65481071396323_2_alg».proof.Proof.EntryArrays
import proofs.«118644_j65481071396323_2_alg».proof.Proof.KernelGate
import Idealize.ShloMosaic.Lib.Pipeline.Value
import Idealize.ShloMosaic.Lib.ValueIdx

open scoped BigOperators

noncomputable section

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block each window is on at point `t`: the activations' and the output's block is sample `t`; the weights and
    biases are one block each. Decided over the 32 points. -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The sample grid point `t` works on. -/
def sample (t : Fin cfg0.N) : Fin 32 := Fin.cast N_0 t

/-- Every activation times the gate of its sample and channel, over the arrays as the region finds them. -/
def gated (c : Dev nD) : S32x256x12544.Idx → EReal := fun i =>
  arrX m c i * Cert.ChannelGate.gate (fun k => ∑ q : Fin 12544, arrX m c (ix3 (i 0) k q))
    (fun o k => arrW1 m c (ix2 k o)) (fun o => arrB1 m c (ix2 0 o))
    (fun c' o => arrW2 m c (ix2 o c')) (fun c' => arrB2 m c (ix2 0 c')) (i 1)

/-- Point `t`'s block of the activations is sample `t`. -/
theorem blk_x (c : Dev nD) (t : Fin cfg0.N) (a : Fin 1) (k : Fin 256) (q : Fin 12544) :
    iblk m c 0 t (ix3 a k q) = arrX m c (ix3 (sample t) k q) := by
  obtain ⟨e0, e1, e2, -⟩ := block_index t
  show arrX m c (((cfg0.win 0).blk t).view.emb (ix3 a k q)) = _
  refine congrArg _ (funext fun ax => Fin.ext ?_)
  match ax with
  | ⟨0, _⟩ => show win0_0.index t (0 : Fin 3) * 1 + 1 * a.val = t.val; omega
  | ⟨1, _⟩ => show win0_0.index t (1 : Fin 3) * 256 + 1 * k.val = k.val; omega
  | ⟨2, _⟩ => show win0_0.index t (2 : Fin 3) * 12544 + 1 * q.val = q.val; omega

/-- The other four windows hold their whole array at every point. -/
theorem blk_w1 (c : Dev nD) (t : Fin cfg0.N) (j : S256x64.Idx) : iblk m c 1 t j = arrW1 m c j := by
  obtain ⟨-, -, -, e0, e1, -⟩ := block_index t
  show arrW1 m c (((cfg0.win 1).blk t).view.emb j) = _
  refine congrArg _ (funext fun ax => Fin.ext ?_)
  match ax with
  | ⟨0, _⟩ => show win0_1.index t (0 : Fin 2) * 256 + 1 * (j 0).val = (j 0).val; omega
  | ⟨1, _⟩ => show win0_1.index t (1 : Fin 2) * 64 + 1 * (j 1).val = (j 1).val; omega
theorem blk_b1 (c : Dev nD) (t : Fin cfg0.N) (j : S1x64.Idx) : iblk m c 2 t j = arrB1 m c j := by
  obtain ⟨-, -, -, -, -, e0, e1, -⟩ := block_index t
  show arrB1 m c (((cfg0.win 2).blk t).view.emb j) = _
  refine congrArg _ (funext fun ax => Fin.ext ?_)
  match ax with
  | ⟨0, _⟩ => show win0_2.index t (0 : Fin 2) * 1 + 1 * (j 0).val = (j 0).val; omega
  | ⟨1, _⟩ => show win0_2.index t (1 : Fin 2) * 64 + 1 * (j 1).val = (j 1).val; omega
theorem blk_w2 (c : Dev nD) (t : Fin cfg0.N) (j : S64x256.Idx) : iblk m c 3 t j = arrW2 m c j := by
  obtain ⟨-, -, -, -, -, -, -, e0, e1, -⟩ := block_index t
  show arrW2 m c (((cfg0.win 3).blk t).view.emb j) = _
  refine congrArg _ (funext fun ax => Fin.ext ?_)
  match ax with
  | ⟨0, _⟩ => show win0_3.index t (0 : Fin 2) * 64 + 1 * (j 0).val = (j 0).val; omega
  | ⟨1, _⟩ => show win0_3.index t (1 : Fin 2) * 256 + 1 * (j 1).val = (j 1).val; omega
theorem blk_b2 (c : Dev nD) (t : Fin cfg0.N) (j : S1x256.Idx) : iblk m c 4 t j = arrB2 m c j := by
  obtain ⟨-, -, -, -, -, -, -, -, -, e0, e1, -⟩ := block_index t
  show arrB2 m c (((cfg0.win 4).blk t).view.emb j) = _
  refine congrArg _ (funext fun ax => Fin.ext ?_)
  match ax with
  | ⟨0, _⟩ => show win0_4.index t (0 : Fin 2) * 1 + 1 * (j 0).val = (j 0).val; omega
  | ⟨1, _⟩ => show win0_4.index t (1 : Fin 2) * 256 + 1 * (j 1).val = (j 1).val; omega

/-- The body's result at point `t`, read at channel `k` and position `q`, is `gated` at `(t, k, q)`. -/
theorem point_eq (c : Dev nD) (t : Fin cfg0.N) (k : Fin 256) (q : Fin 12544) :
    k0_pay1 (F := Ideal) (iblk m c 0 t) (iblk m c 1 t) (iblk m c 2 t) (iblk m c 3 t) (iblk m c 4 t) (ix3 0 k q)
      = gated m c (ix3 (sample t) k q) := by
  refine (Cert.KernelGate.payload_apply (iblk m c 0 t) (iblk m c 1 t) (iblk m c 2 t) (iblk m c 3 t) (iblk m c 4 t) k q).trans ?_
  unfold gated
  simp only [blk_x, blk_w1, blk_b1, blk_w2, blk_b2]

/-- The same at any index of the block: its leading coordinate is the block's one row. -/
theorem point_eq_idx (c : Dev nD) (t : Fin cfg0.N) (y : S1x256x12544.Idx) :
    k0_pay1 (F := Ideal) (iblk m c 0 t) (iblk m c 1 t) (iblk m c 2 t) (iblk m c 3 t) (iblk m c 4 t) y
      = gated m c (ix3 (sample t) (y 1) (y 2)) := by
  obtain ⟨a, k, q, rfl⟩ : ∃ (a : Fin 1) (k : Fin 256) (q : Fin 12544), y = ix3 a k q := ⟨y 0, y 1, y 2, eq_ix3 y⟩
  obtain rfl : a = 0 := Subsingleton.elim _ _
  exact point_eq m c t k q

/-- What point `t` writes back is block `t` of `gated`. -/
theorem flushed_eq (c : Dev nD) (t : Fin cfg0.N) :
    (dats m 0 c).flushed 5 t = ((cfg0.win 5).blk t).view.read (Elt Ideal) (gated m c) := by
  show (cfg0.win 5).cut (grid0.coords t) ((dats m 0 c).after 5 t) = _
  rw [after0_5]
  unfold out0_5
  rw [View.canon_unit_zero zeros3]
  simp only [View.ld_unit_zero (S := S1x256x12544) zeros3, View.ld_unit_zero (S := S256x64) zeros2,
    View.ld_unit_zero (S := S1x64) zeros2, View.ld_unit_zero (S := S64x256) zeros2, View.ld_unit_zero (S := S1x256) zeros2]
  obtain ⟨-, -, -, -, -, -, -, -, -, -, -, e0, e1, e2⟩ := block_index t
  funext j
  show k0_pay1 (F := Ideal) (iblk m c 0 t) (iblk m c 1 t) (iblk m c 2 t) (iblk m c 3 t) (iblk m c 4 t) j
    = gated m c (((cfg0.win 5).blk t).view.emb j)
  refine (point_eq_idx m c t j).trans (congrArg (gated m c) (funext fun ax => Fin.ext ?_))
  match ax with
  | ⟨0, _⟩ =>
    show t.val = win0_5.index t (0 : Fin 3) * 1 + 1 * (j 0).val
    have hj : (j 0).val < 1 := (j 0).isLt
    omega
  | ⟨1, _⟩ => show (j 1).val = win0_5.index t (1 : Fin 3) * 256 + 1 * (j 1).val; omega
  | ⟨2, _⟩ => show (j 2).val = win0_5.index t (2 : Fin 3) * 12544 + 1 * (j 2).val; omega

/-- An index of the output is in point `t`'s block iff each coordinate is in the block's range on its axis. -/
theorem mem_blk (t : Fin cfg0.N) (i : S32x256x12544.Idx) :
    i ∈ ((cfg0.win 5).blk t).view.set ↔ ∀ a : Fin 3, win0_5.index t a * S1x256x12544.size a ≤ (i a).val
      ∧ (i a).val < win0_5.index t a * S1x256x12544.size a + S1x256x12544.size a := by
  show i ∈ ((View.whole main_v5).slice (win0_5.rect t)).set ↔ _
  rw [View.set_slice_whole, Rect.mem_set_unit]
  exact Iff.rfl

/-- Every index of the output is in the block of its sample's point, and every point writes back. -/
theorem cover (i : S32x256x12544.Idx) :
    ∃ t : Fin cfg0.N, (cfg0.win 5).flush t = true ∧ i ∈ ((cfg0.win 5).blk t).view.set := by
  refine ⟨Fin.cast N_0.symm (i 0), flush0_5 _, ?_⟩
  rw [mem_blk]
  obtain ⟨-, -, -, -, -, -, -, -, -, -, -, e0, e1, e2⟩ := block_index (Fin.cast N_0.symm (i 0))
  have ht : (Fin.cast N_0.symm (i 0)).val = (i 0).val := rfl
  intro a
  match a with
  | ⟨0, _⟩ =>
    show win0_5.index (Fin.cast N_0.symm (i 0)) (0 : Fin 3) * 1 ≤ (i 0).val
      ∧ (i 0).val < win0_5.index (Fin.cast N_0.symm (i 0)) (0 : Fin 3) * 1 + 1
    omega
  | ⟨1, _⟩ =>
    show win0_5.index (Fin.cast N_0.symm (i 0)) (1 : Fin 3) * 256 ≤ (i 1).val
      ∧ (i 1).val < win0_5.index (Fin.cast N_0.symm (i 0)) (1 : Fin 3) * 256 + 256
    have h1 : (i 1).val < 256 := (i 1).isLt
    omega
  | ⟨2, _⟩ =>
    show win0_5.index (Fin.cast N_0.symm (i 0)) (2 : Fin 3) * 12544 ≤ (i 2).val
      ∧ (i 2).val < win0_5.index (Fin.cast N_0.symm (i 0)) (2 : Fin 3) * 12544 + 12544
    have h2 : (i 2).val < 12544 := (i 2).isLt
    omega

/-- The output array after the region. -/
theorem region_out (c : Dev nD) : (dats m 0 c).arrAt 5 cfg0.N = gated m c :=
  (dats m 0 c).arrAt_eq_of_cover 5 (gated m c) (fun t _ => flushed_eq m c t) cover

/-- A channel's sum over the 12544 merged positions is its sum over the 112 × 112 grid. -/
theorem merged_sum (c : Dev nD) (b : Fin 32) (k : Fin 256) :
    ∑ q : Fin 12544, arrX m c (ix3 b k q) = Cert.ChannelGate.gridSum (argX m c) b k := by
  unfold Cert.ChannelGate.gridSum
  rw [Cert.BlockSum.sum_fin_blocks (A := 112) (B := 112) (by norm_num : 12544 = 112 * 112)]
  refine Finset.sum_congr rfl fun h _ => Finset.sum_congr rfl fun w _ => ?_
  exact entry_x_apply m c b k h w _ (by show 112 * h.val + w.val = h.val * 112 + w.val; omega)

/-- `gated` at merged position `q = h · 112 + w` is the specification's result at grid position `(h, w)`. -/
theorem gated_apply (c : Dev nD) (b : Fin 32) (k : Fin 256) (h w : Fin 112) (q : Fin 12544)
    (hq : q.val = h.val * 112 + w.val) :
    gated m c (ix3 b k q)
      = Cert.ChannelGate.scaled (argX m c) (argW1 m c) (argB1 m c) (argW2 m c) (argB2 m c) (ix4 b k h w) := by
  have hs : (fun k1 : Fin 256 => ∑ q1 : Fin 12544, arrX m c (ix3 b k1 q1)) = Cert.ChannelGate.gridSum (argX m c) b :=
    funext fun k1 => merged_sum m c b k1
  unfold gated Cert.ChannelGate.scaled
  show arrX m c (ix3 b k q) * Cert.ChannelGate.gate (fun k1 : Fin 256 => ∑ q1 : Fin 12544, arrX m c (ix3 b k1 q1))
      (fun o k => arrW1 m c (ix2 k o)) (fun o => arrB1 m c (ix2 0 o))
      (fun c' o => arrW2 m c (ix2 o c')) (fun c' => arrB2 m c (ix2 0 c')) k
    = argX m c (ix4 b k h w) * Cert.ChannelGate.gate (Cert.ChannelGate.gridSum (argX m c) b)
      (fun o k => argW1 m c (ix2 o k)) (fun o => argB1 m c (ix1 o))
      (fun c' o => argW2 m c (ix2 c' o)) (fun c' => argB2 m c (ix1 c')) k
  rw [hs, entry_x_apply m c b k h w q hq]
  simp only [entry_w1_apply, entry_w2_apply, entry_b1_apply, entry_b2_apply]

end Cert.KernelSide
end
-- ==== Proof.KernelResult.lean ====
/-
  The kernel program's result, as a function of its arguments.

  After the region the program views the output `[32, 256, 12544]` as `[32, 256, 112, 112]`: grid position `(h, w)` is
  merged position `h · 112 + w`. The output array is `gated`, which at that position is the specification's result at
  `(h, w)`; so the program's result is the specification's, and its run is the generated run with the result named.
-/
import proofs.«118644_j65481071396323_2_alg».proof.Proof.KernelArray
import Idealize.ShloMosaic.Lib.StableHlo.Run

open scoped BigOperators

noncomputable section

namespace Cert.KernelSide

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The program's result buffer after the line that follows the region: the output array with its long axis split. -/
theorem tail_out (c : Dev nD) :
    (Pipeline.afterTail₀ cfgs (dats m) 0 (V0 m) [hostOps1] c main_v6 : S32x256x112x112.Idx → EReal)
      = shapeCast S32x256x112x112 (gated m c) shapeCasts_S32x256x12544_S32x256x112x112 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = gated m c :=
    (Pipeline.withArrays_arr spec0 launch0.win.arr_inj c _ _ 5).trans (region_out m c)
  exact congrArg (fun A => shapeCast S32x256x112x112 A shapeCasts_S32x256x12544_S32x256x112x112) e

/-- The program's result is the specification's, index by index. -/
theorem result_eq (c : Dev nD) :
    (Pipeline.afterTail₀ cfgs (dats m) 0 (V0 m) [hostOps1] c main_v6 : S32x256x112x112.Idx → EReal)
      = Cert.ChannelGate.scaled (argX m c) (argW1 m c) (argB1 m c) (argW2 m c) (argB2 m c) := by
  rw [tail_out]
  funext i
  obtain ⟨b, k, h, w, rfl⟩ : ∃ (b : Fin 32) (k : Fin 256) (h w : Fin 112), i = ix4 b k h w := ⟨i 0, i 1, i 2, i 3, eq_ix4 i⟩
  have hlt : h.val * 112 + w.val < 12544 := by have := h.isLt; have := w.isLt; omega
  refine (shapeCast_apply (gated m c) shapeCasts_S32x256x12544_S32x256x112x112 (ix4 b k h w) (ix3 b k ⟨h.val * 112 + w.val, hlt⟩) ?_).trans
    (gated_apply m c b k h w ⟨h.val * 112 + w.val, hlt⟩ rfl)
  rw [Shape.rowMajor_val_three, Shape.rowMajor_val_four]
  show (b.val * 256 + k.val) * 12544 + (h.val * 112 + w.val) = ((b.val * 256 + k.val) * 112 + h.val) * 112 + w.val
  omega

/-- Every weakly fair execution of the kernel program terminates with its result at the specification's value of the
    arguments, the arguments unchanged. -/
theorem run : θ_run defs (onTc (τ := τ) (main (F := Ideal))) ⟨m, fun _ => 0, ρ⟩ fun r => ∀ c : Dev nD,
      r.2.mem ((c.tc : Thread nD τ).loc main_v6)
        = Cert.ChannelGate.scaled (argX m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelSide

end
-- ==== Proof.lean ====
/-
  Three programs compute the channel-gated activations of a squeeze-and-excite block on `x : [32, 256, 112, 112]`: for
  every sample and channel the mean of the activations over the 112 × 112 positions, a dense layer 256 → 64 with bias and
  rectifier, a dense layer 64 → 256 with bias, the logistic function, and every activation times the value obtained for
  its sample and channel (`Cert.ChannelGate.scaled`).

  The kernel program views the positions as one axis of 12544 = 112 · 112, works one sample per grid point on transposed
  weight matrices, and views its output back as a grid; the reference works on the whole array at once. At the ideal
  values the two are one function of the arguments: a channel's sum over the merged positions is its sum over the grid
  (addition on the extended reals is commutative and associative, so no finiteness is used), the transposed matrices are
  read at swapped coordinates, both divide by the same word 12544.0, and the reference's `1 / (1 + e^(-a))` is the
  logistic function. The idealized kernel is the kernel's own text read at the ideal values, so the claim that it is the
  kernel's sanctioned idealization has nothing to show.

  The three programs terminate with their arguments unchanged: for the two kernel programs this is the generated frame;
  for the reference it is its generated run with the result dropped.
-/
import proofs.«118644_j65481071396323_2_alg».proof.Defs
import proofs.«118644_j65481071396323_2_alg».proof.Proof.Gen.Kernel
import proofs.«118644_j65481071396323_2_alg».proof.Proof.Gen.Kernel.Skeleton
import proofs.«118644_j65481071396323_2_alg».proof.Proof.Gen.Kernel.Launch
import proofs.«118644_j65481071396323_2_alg».proof.Proof.Gen.Kernel.Points
import proofs.«118644_j65481071396323_2_alg».proof.Proof.Gen.Kernel.Frame
import proofs.«118644_j65481071396323_2_alg».proof.Proof.Gen.KernelIdeal
import proofs.«118644_j65481071396323_2_alg».proof.Proof.Gen.KernelIdeal.Skeleton
import proofs.«118644_j65481071396323_2_alg».proof.Proof.Gen.KernelIdeal.Launch
import proofs.«118644_j65481071396323_2_alg».proof.Proof.Gen.KernelIdeal.Points
import proofs.«118644_j65481071396323_2_alg».proof.Proof.Gen.KernelIdeal.Frame
import proofs.«118644_j65481071396323_2_alg».proof.Proof.Gen.ReferenceIdeal
import proofs.«118644_j65481071396323_2_alg».proof.Proof.Gen.Pre_finite_inputs
import proofs.«118644_j65481071396323_2_alg».proof.Proof.Gen.ReferenceIdeal.Run
import proofs.«118644_j65481071396323_2_alg».proof.Proof.Gen.ReferenceIdeal.Read
import proofs.«118644_j65481071396323_2_alg».proof.Proof.RefGate
import proofs.«118644_j65481071396323_2_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both idealized programs end with the specification's value of the
    arguments in their result. -/
theorem algebraic : Cert.algebraic_KernelIdeal_ReferenceIdeal := by
  intro m ρ m' ρ' _ hagree
  refine ⟨fun c => Cert.ChannelGate.scaled (Cert.KernelSide.argX m c) (Cert.KernelSide.argW1 m c) (Cert.KernelSide.argB1 m c)
    (Cert.KernelSide.argW2 m c) (Cert.KernelSide.argB2 m c), Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v20_eq]
  exact Cert.RefGate.reference_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
